-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S262144x64 : Shape := ⟨2, ![262144, 64]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg5 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg5
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S4x2048x4096 .f32) (main_arg1 : IVec S262144x64 32) (main_arg2 : FVec F S262144 .f32) (main_arg3 : FVec F S4096 .f32) (main_arg4 : FVec F S8x4096 .f32) (main_arg5 : FVec F S4096x8 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg5 main_v13 main_v16
-- ==== Kernel.lean ====
abbrev S4x2048x4096 : Shape := ⟨3, ![4, 2048, 4096]⟩
abbrev S262144x64 : Shape := ⟨2, ![262144, 64]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S16 : Shape := ⟨1, ![16]⟩
abbrev S8192x4096 : Shape := ⟨2, ![8192, 4096]⟩
abbrev S_ : Shape := ⟨0, ![]⟩
abbrev S262144x64x1 : Shape := ⟨3, ![262144, 64, 1]⟩
abbrev S262144x1 : Shape := ⟨2, ![262144, 1]⟩
abbrev S4096x4096 : Shape := ⟨2, ![4096, 4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 32
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S262144x64, .i32⟩
  | .hbm, ⟨2, _⟩ => ⟨S262144, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S16, .f32⟩
  | .hbm, ⟨7, _⟩ => ⟨S8192x4096, .f32⟩
  | .hbm, ⟨8, _⟩ => ⟨S8192x4096, .bf16⟩
  | .hbm, ⟨9, _⟩ => ⟨S_, .i32⟩
  | .hbm, ⟨10, _⟩ => ⟨S262144x64, .i32⟩
  | .hbm, ⟨11, _⟩ => ⟨S262144x64, .i1⟩
  | .hbm, ⟨12, _⟩ => ⟨S_, .i32⟩
  | .hbm, ⟨13, _⟩ => ⟨S262144x64, .i32⟩
  | .hbm, ⟨14, _⟩ => ⟨S262144x64, .i32⟩
  | .hbm, ⟨15, _⟩ => ⟨S262144x64, .i32⟩
  | .hbm, ⟨16, _⟩ => ⟨S262144x64x1, .i32⟩
  | .hbm, ⟨17, _⟩ => ⟨S262144x64, .f32⟩
  | .hbm, ⟨18, _⟩ => ⟨S262144x1, .f32⟩
  | .hbm, ⟨19, _⟩ => ⟨S262144x64, .f32⟩
  | .hbm, ⟨20, _⟩ => ⟨S262144x64, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .bf16⟩
  | .hbm, ⟨28, _⟩ => ⟨S4096x4096, .bf16⟩
  | .hbm, ⟨29, _⟩ => ⟨S1x4096, .f32⟩
  | .hbm, ⟨30, _⟩ => ⟨S8192x4096, .f32⟩
  | .hbm, ⟨31, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  bcast_S_S262144x64 : S_.BroadcastsInDim S262144x64 (![] : Fin 0 → Fin S262144x64.rank)
  bcast_S262144x64_S262144x64x1_0_1 : S262144x64.BroadcastsInDim S262144x64x1 (![0, 1] : Fin 2 → Fin S262144x64x1.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S_S4096x4096 : S_.BroadcastsInDim S4096x4096 (![] : Fin 0 → Fin S4096x4096.rank)
  transposes_S4096x4096_S4096x4096_1_0 : S4096x4096.Transposes [1, 0] S4096x4096
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  gather_S16_S262144x64x1_S262144x64_n_0_n_n_0_2_1_wf : GatherDims.WF S16 S262144x64x1 S262144x64 [] [0] [] [0] [] 2 ![1]
  dot_S4096x8_S8x4096_S4096x4096_1_0_0_1_n_n_wf : DotDims.WF S4096x8 S8x4096 S4096x4096 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def gather_S16_S262144x64x1_S262144x64_n_0_n_n_0_2_1 : GatherDims S16 S262144x64x1 S262144x64 where
  offsetDims := []
  collapsedSliceDims := [0]
  operandBatchingDims := []
  startIndicesBatchingDims := []
  startIndexMap := [0]
  indexVectorDim := 2
  sliceSizes := ![1]
  wf := gather_S16_S262144x64x1_S262144x64_n_0_n_n_0_2_1_wf
def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S262144x64 : Shape := ⟨2, ![262144, 64]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S16 : Shape := ⟨1, ![16]⟩
abbrev S_ : Shape := ⟨0, ![]⟩
abbrev S262144x64x1 : Shape := ⟨3, ![262144, 64, 1]⟩
abbrev S262144x1 : Shape := ⟨2, ![262144, 1]⟩
abbrev S4096x4096 : Shape := ⟨2, ![4096, 4096]⟩
abbrev S1x1x4096 : Shape := ⟨3, ![1, 1, 4096]⟩
abbrev S4x2048x8 : Shape := ⟨3, ![4, 2048, 8]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S262144x64, .i32⟩
  | .hbm, ⟨2, _⟩ => ⟨S262144, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S16, .f32⟩
  | .hbm, ⟨7, _⟩ => ⟨S_, .i32⟩
  | .hbm, ⟨8, _⟩ => ⟨S262144x64, .i32⟩
  | .hbm, ⟨9, _⟩ => ⟨S262144x64, .i1⟩
  | .hbm, ⟨10, _⟩ => ⟨S_, .i32⟩
  | .hbm, ⟨11, _⟩ => ⟨S262144x64, .i32⟩
  | .hbm, ⟨12, _⟩ => ⟨S262144x64, .i32⟩
  | .hbm, ⟨13, _⟩ => ⟨S262144x64, .i32⟩
  | .hbm, ⟨14, _⟩ => ⟨S262144x64x1, .i32⟩
  | .hbm, ⟨15, _⟩ => ⟨S262144x64, .f32⟩
  | .hbm, ⟨16, _⟩ => ⟨S262144x1, .f32⟩
  | .hbm, ⟨17, _⟩ => ⟨S262144x64, .f32⟩
  | .hbm, ⟨18, _⟩ => ⟨S262144x64, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x8, .f32⟩
  | .hbm, ⟨25, _⟩ => ⟨S4x2048x4096, .f32⟩
  | .hbm, ⟨26, _⟩ => ⟨S_, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  bcast_S262144x64_S262144x64x1_0_1 : S262144x64.BroadcastsInDim S262144x64x1 (![0, 1] : Fin 2 → Fin S262144x64x1.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  gather_S16_S262144x64x1_S262144x64_n_0_n_n_0_2_1_wf : GatherDims.WF S16 S262144x64x1 S262144x64 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def gather_S16_S262144x64x1_S262144x64_n_0_n_n_0_2_1 : GatherDims S16 S262144x64x1 S262144x64 where
  offsetDims := []
  collapsedSliceDims := [0]
  operandBatchingDims := []
  startIndicesBatchingDims := []
  startIndexMap := [0]
  indexVectorDim := 2
  sliceSizes := ![1]
  wf := gather_S16_S262144x64x1_S262144x64_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.Spec.lean ====
/-
  The quantity both programs compute, entry by entry, on the extended reals.

  Inputs: activations x[b, s, k] (4 x 2048 x 4096), a weight matrix W[o, k] (4096 x 4096; how it is decoded from the
  codes and block scales is the same on both sides and never opened), a bias[o], and the two low-rank factors A[r, k]
  (8 x 4096) and B[o, r] (4096 x 8). The scale of the low-rank update is the float whose bits are 0x40000000.

  One side folds the update into the weight and multiplies once:
      kerAt = sum_k x[b,s,k] * (W[o,k] + two * sum_r B[o,r] * A[r,k]) + bias[o].
  The other side keeps three products:
      refAt = (sum_k x[b,s,k] * W[o,k] + bias[o]) + (sum_r (sum_k x[b,s,k] * A[r,k]) * B[o,r]) * two.
-/
import Idealize.ShloMosaic.PureOps.Ideal
import Idealize.ShloMosaic.Lib.ValueIdx

noncomputable section

namespace Cert.Spec

open Idealize.ShloMosaic Idealize.ShloMosaic.ValueIdx

/-- The scale of the low-rank update, as the float both programs hold. -/
def two : EReal := Ideal.ofBits .f32 0x40000000#32

/-- The folded form: one product against the updated weight, plus the bias. -/
def kerAt (x : (⟨3, ![4, 2048, 4096]⟩ : Shape).Idx → EReal) (W : (⟨2, ![4096, 4096]⟩ : Shape).Idx → EReal)
    (bias : (⟨1, ![4096]⟩ : Shape).Idx → EReal) (A : (⟨2, ![8, 4096]⟩ : Shape).Idx → EReal)
    (B : (⟨2, ![4096, 8]⟩ : Shape).Idx → EReal) (b : Fin 4) (s : Fin 2048) (o : Fin 4096) : EReal :=
  (∑ k : Fin 4096, x (ix3 b s k) * (W (ix2 o k) + two * ∑ r : Fin 8, B (ix2 o r) * A (ix2 r k))) + bias (ix1 o)

/-- The unfolded form: the base product plus the bias, plus the scaled product through the rank-8 bottleneck. -/
def refAt (x : (⟨3, ![4, 2048, 4096]⟩ : Shape).Idx → EReal) (W : (⟨2, ![4096, 4096]⟩ : Shape).Idx → EReal)
    (bias : (⟨1, ![4096]⟩ : Shape).Idx → EReal) (A : (⟨2, ![8, 4096]⟩ : Shape).Idx → EReal)
    (B : (⟨2, ![4096, 8]⟩ : Shape).Idx → EReal) (b : Fin 4) (s : Fin 2048) (o : Fin 4096) : EReal :=
  ((∑ k : Fin 4096, x (ix3 b s k) * W (ix2 o k)) + bias (ix1 o))
    + (∑ r : Fin 8, (∑ k : Fin 4096, x (ix3 b s k) * A (ix2 r k)) * B (ix2 o r)) * two

/-- The whole result array in the folded form. -/
def result (x : (⟨3, ![4, 2048, 4096]⟩ : Shape).Idx → EReal) (W : (⟨2, ![4096, 4096]⟩ : Shape).Idx → EReal)
    (bias : (⟨1, ![4096]⟩ : Shape).Idx → EReal) (A : (⟨2, ![8, 4096]⟩ : Shape).Idx → EReal)
    (B : (⟨2, ![4096, 8]⟩ : Shape).Idx → EReal) : (⟨3, ![4, 2048, 4096]⟩ : Shape).Idx → EReal :=
  fun i => kerAt x W bias A B (i 0) (i 1) (i 2)

theorem result_apply (x : (⟨3, ![4, 2048, 4096]⟩ : Shape).Idx → EReal) (W : (⟨2, ![4096, 4096]⟩ : Shape).Idx → EReal)
    (bias : (⟨1, ![4096]⟩ : Shape).Idx → EReal) (A : (⟨2, ![8, 4096]⟩ : Shape).Idx → EReal)
    (B : (⟨2, ![4096, 8]⟩ : Shape).Idx → EReal) (b : Fin 4) (s : Fin 2048) (o : Fin 4096) :
    result x W bias A B (ix3 b s o) = kerAt x W bias A B b s o := rfl

end Cert.Spec

end
-- ==== Proof.Law.lean ====
/-
  The folded and the unfolded form of the low-rank update agree on the extended reals.

  With x, A, B real-valued (W and the bias may be any extended reals, infinite ones included):
      sum_k x_k * (W_k + t * sum_r B_r * A_rk) + bias
        = (sum_k x_k * W_k + bias) + (sum_r (sum_k x_k * A_rk) * B_r) * t.
  The extended reals are not a ring (multiplication does not distribute over addition in general), so the one
  distributive step is proved by hand: a REAL multiplier distributes over a sum one of whose terms is real.
  Everything else is addition in a commutative monoid (sums split with no finiteness condition) and an identity
  between real numbers, carried through the coercion.
-/
import proofs.«128790_j85890755985991_2_alg».proof.Proof.Spec
import Mathlib

noncomputable section

namespace Cert.Spec

open Idealize.ShloMosaic Idealize.ShloMosaic.ValueIdx

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real multiplier distributes over a sum whose second term is real, whatever the first term is. -/
theorem coe_mul_add_coe (c d : ℝ) (w : EReal) :
    (c : EReal) * (w + (d : EReal)) = (c : EReal) * w + (c : EReal) * (d : EReal) := by
  induction w using EReal.rec with
  | bot =>
    rcases lt_trichotomy c 0 with h | h | h
    · rw [EReal.bot_add, EReal.coe_mul_bot_of_neg h, ← EReal.coe_mul, EReal.top_add_coe]
    · subst h
      simp
    · rw [EReal.bot_add, EReal.coe_mul_bot_of_pos h, EReal.bot_add]
  | coe r =>
    rw [← EReal.coe_add, ← EReal.coe_mul, ← EReal.coe_mul, ← EReal.coe_mul, ← EReal.coe_add, mul_add]
  | top =>
    rcases lt_trichotomy c 0 with h | h | h
    · rw [EReal.top_add_coe, EReal.coe_mul_top_of_neg h, EReal.bot_add]
    · subst h
      simp
    · rw [EReal.top_add_coe, EReal.coe_mul_top_of_pos h, ← EReal.coe_mul, EReal.top_add_coe]

/-- The scale of the update is the real number two. -/
theorem two_eq : two = ((2 : ℝ) : EReal) := by
  unfold two
  simp [Ideal.ofBits, Ideal.ieee, -EReal.coe_mul]
  norm_num

/-- The law over abstract finite index types: K the contracted axis, R the rank of the update. -/
theorem law {K R : Type*} [Fintype K] [Fintype R] (xr : K → ℝ) (W : K → EReal) (bias : EReal)
    (Ar : R → K → ℝ) (Br : R → ℝ) (t : ℝ) :
    (∑ k, (xr k : EReal) * (W k + (t : EReal) * ∑ r, (Br r : EReal) * (Ar r k : EReal))) + bias
      = ((∑ k, (xr k : EReal) * W k) + bias)
          + (∑ r, (∑ k, (xr k : EReal) * (Ar r k : EReal)) * (Br r : EReal)) * (t : EReal) := by
  -- the update's entry is a real number
  have hd : ∀ k, (t : EReal) * ∑ r, (Br r : EReal) * (Ar r k : EReal)
      = ((t * ∑ r, Br r * Ar r k : ℝ) : EReal) := by
    intro k
    rw [EReal.coe_mul, coe_finset_sum]
    simp only [EReal.coe_mul]
  -- the product through the bottleneck is a real number
  have hq : (∑ r, (∑ k, (xr k : EReal) * (Ar r k : EReal)) * (Br r : EReal)) * (t : EReal)
      = (((∑ r, (∑ k, xr k * Ar r k) * Br r) * t : ℝ) : EReal) := by
    rw [EReal.coe_mul, coe_finset_sum]
    simp only [EReal.coe_mul, coe_finset_sum]
  -- the identity between real numbers
  have hreal : (∑ k, xr k * (t * ∑ r, Br r * Ar r k)) = (∑ r, (∑ k, xr k * Ar r k) * Br r) * t := by
    simp only [Finset.mul_sum, Finset.sum_mul]
    rw [Finset.sum_comm]
    refine Finset.sum_congr rfl (fun r _ => Finset.sum_congr rfl (fun k _ => ?_))
    ring
  have hsplit : (∑ k, (xr k : EReal) * (W k + (t : EReal) * ∑ r, (Br r : EReal) * (Ar r k : EReal)))
      = (∑ k, (xr k : EReal) * W k) + (((∑ k, xr k * (t * ∑ r, Br r * Ar r k) : ℝ)) : EReal) := by
    rw [coe_finset_sum, ← Finset.sum_add_distrib]
    refine Finset.sum_congr rfl (fun k _ => ?_)
    rw [hd k, coe_mul_add_coe, ← EReal.coe_mul]
  rw [hsplit, hq, hreal, add_right_comm]

theorem kerAt_eq_refAt (x : (⟨3, ![4, 2048, 4096]⟩ : Shape).Idx → EReal) (W : (⟨2, ![4096, 4096]⟩ : Shape).Idx → EReal)
    (bias : (⟨1, ![4096]⟩ : Shape).Idx → EReal) (A : (⟨2, ![8, 4096]⟩ : Shape).Idx → EReal)
    (B : (⟨2, ![4096, 8]⟩ : Shape).Idx → EReal)
    (hx : ∀ i, ∃ r : ℝ, x i = (r : EReal)) (hA : ∀ i, ∃ r : ℝ, A i = (r : EReal))
    (hB : ∀ i, ∃ r : ℝ, B i = (r : EReal)) (b : Fin 4) (s : Fin 2048) (o : Fin 4096) :
    kerAt x W bias A B b s o = refAt x W bias A B b s o := by
  choose xr hxr using hx
  choose Ar hAr using hA
  choose Br hBr using hB
  obtain rfl : x = fun i => (xr i : EReal) := funext hxr
  obtain rfl : A = fun i => (Ar i : EReal) := funext hAr
  obtain rfl : B = fun i => (Br i : EReal) := funext hBr
  unfold kerAt refAt
  rw [two_eq]
  exact law (fun k : Fin 4096 => xr (ix3 b s k)) (fun k : Fin 4096 => W (ix2 o k)) (bias (ix1 o))
    (fun (r : Fin 8) (k : Fin 4096) => Ar (ix2 r k)) (fun r : Fin 8 => Br (ix2 o r)) 2

end Cert.Spec

end
-- ==== Proof.Finite.lean ====
/-
  What the precondition says of the inputs.

  The precondition is the conjunction of five tests, one per float input v among x, the block scales, the bias,
  A and B: every entry of v satisfies |v| < +inf, where |v| = max v (-v) on the extended reals and +inf is the
  float whose bits are 0x7F800000. An extended real whose absolute value is below the top element is neither
  infinity, hence a real number. The facts about x, A and B are what the algebra of the certificate needs.
-/
import proofs.«128790_j85890755985991_2_alg».proof.Pre_finite_inputs
import proofs.«128790_j85890755985991_2_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx

/-- The float with bits 0x7F800000 is the top element. -/
theorem inf_eq_top : Ideal.ofBits .f32 0x7F800000#32 = (⊤ : EReal) := by
  simp [Ideal.ofBits, Ideal.ieee]

/-- An extended real whose absolute value compares below +inf is a real number. -/
theorem real_of_abs_lt_inf (v : EReal)
    (h : Ideal.cmp .olt (max v (-v)) (Ideal.ofBits .f32 0x7F800000#32) = 1#1) : ∃ r : ℝ, v = (r : EReal) := by
  rw [inf_eq_top] at h
  unfold Ideal.cmp at h
  induction v using EReal.rec with
  | bot => simp at h
  | coe r => exact ⟨r, rfl⟩
  | top => simp at h

/-- The shape with no axes has one index. -/
instance : Subsingleton Cert.Pre_finite_inputs.S_.Idx := ⟨fun a b => funext fun d => d.elim0⟩

/-- One test, read back: if all entries of v pass |v| < +inf, every entry of v is a real number. -/
theorem reals_of_all {S : Shape} {axes : List (Fin S.rank)} (v : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf v)
            (broadcastInDim S ![] hb (constant (F := Ideal) Cert.Pre_finite_inputs.S_ .f32 0x7F800000#32)))
          init hr hu ix0 = 1#1) :
    ∀ i, ∃ r : ℝ, v i = (r : EReal) := by
  intro i
  exact real_of_abs_lt_inf (v i) (Host.reduce_andi_all _ init hr hu ix0 e i)

/-- The conjunction of two one-bit answers is 1 only if both are. -/
theorem both_of_andi (a b : IVec Cert.Pre_finite_inputs.S_ 1) (h : andi a b ix0 = 1#1) :
    a ix0 = 1#1 ∧ b ix0 = 1#1 :=
  IntOp.andi_eq_one.1 h

theorem reals_of_pre (x : FVec Ideal Cert.Pre_finite_inputs.S4x2048x4096 .f32)
    (codes : IVec Cert.Pre_finite_inputs.S262144x64 32) (scales : FVec Ideal Cert.Pre_finite_inputs.S262144 .f32)
    (bias : FVec Ideal Cert.Pre_finite_inputs.S4096 .f32) (A : FVec Ideal Cert.Pre_finite_inputs.S8x4096 .f32)
    (B : FVec Ideal Cert.Pre_finite_inputs.S4096x8 .f32)
    (h : Cert.Pre_finite_inputs.fn (F := Ideal) x codes scales bias A B = fun _ => 1#1) :
    (∀ i, ∃ r : ℝ, x i = (r : EReal)) ∧ (∀ i, ∃ r : ℝ, A i = (r : EReal)) ∧ (∀ i, ∃ r : ℝ, B i = (r : EReal)) := by
  have h0 : Cert.Pre_finite_inputs.fn (F := Ideal) x codes scales bias A B ix0 = 1#1 := congrFun h ix0
  dsimp only [Cert.Pre_finite_inputs.fn, Cert.Pre_finite_inputs.fn_part1] at h0
  obtain ⟨h1234, h5⟩ := both_of_andi _ _ h0
  obtain ⟨h123, h4⟩ := both_of_andi _ _ h1234
  obtain ⟨h12, _⟩ := both_of_andi _ _ h123
  obtain ⟨h1, _⟩ := both_of_andi _ _ h12
  exact ⟨reals_of_all x _ _ _ _ h1, reals_of_all A _ _ _ _ h4, reals_of_all B _ _ _ _ h5⟩

end Cert.Finite

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.KerHost.lean ====
/-
  What the kernel's three input windows hold when the grid starts, as functions of the program's arguments.

  * the activations, flattened from [4, 2048, 4096] to [8192, 4096] (row b * 2048 + s) and narrowed to bf16 — narrowing
    is the identity on exact values;
  * the weight the kernel multiplies by: the decoded weight W[o, k] plus two times the rank-8 product sum_r B[o, r] * A[r, k],
    narrowed and TRANSPOSED, so that entry (k, o) of the staged array is the updated weight at (o, k);
  * the bias as one row.
  The decoding of W from the codes and block scales is named (weight) and never opened.
-/
import proofs.«128790_j85890755985991_2_alg».proof.Proof.Gen.KernelIdeal.Frame
import proofs.«128790_j85890755985991_2_alg».proof.Proof.Spec
import proofs.«128790_j85890755985991_2_alg».proof.Proof.LibPlainDot
import proofs.«128790_j85890755985991_2_alg».proof.Proof.LibLayout3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.KerValue

open Cert.KernelIdeal Cert.KernelIdeal.Gen Idealize.ShloMosaic Idealize.ShloMosaic.TcCoe Idealize.SL.Sem
open Idealize.ShloMosaic.StableHlo Idealize.ShloMosaic.ValueIdx

/-- The weight decoded from the 4-bit codes and the per-block scales: a table lookup (negative codes wrapped by 16)
    times the block's scale, laid out as a 4096 x 4096 matrix. Carried whole. -/
def weight (codes : IVec S262144x64 32) (scales : FVec Ideal S262144 .f32) : FVec Ideal S4096x4096 .f32 :=
  shapeCast S4096x4096
    (mulf
      (Host.gather gather_S16_S262144x64x1_S262144x64_n_0_n_n_0_2_1
        ((fun i => FloatOps.ofBits .f32 (lit0 (S16.rowMajor i))) : FVec Ideal S16 .f32)
        (broadcastInDim S262144x64x1 ![0, 1] bcast_S262144x64_S262144x64x1_0_1
          (select
            (cmpi CmpIPredicate.slt codes (broadcastInDim S262144x64 ![] bcast_S_S262144x64 (constantI S_ 32 0#32)))
            (addi codes (broadcastInDim S262144x64 ![] bcast_S_S262144x64 (constantI S_ 32 16#32)))
            codes)))
      (broadcastInDim S262144x64 ![0, 1] bcast_S262144x1_S262144x64_0_1
        (broadcastInDim S262144x1 ![0] bcast_S262144_S262144x1_0 scales)))
    shapeCasts_S262144x64_S4096x4096

/-- The staged weight: decoded weight plus two times B · A, narrowed, transposed. -/
def wT (codes : IVec S262144x64 32) (scales : FVec Ideal S262144 .f32) (A : FVec Ideal S8x4096 .f32)
    (B : FVec Ideal S4096x8 .f32) : FVec Ideal S4096x4096 .bf16 :=
  transpose S4096x4096 [1, 0]
    (truncf .bf16
      (addf (weight codes scales)
        (mulf (broadcastInDim S4096x4096 ![] bcast_S_S4096x4096 (constant (F := Ideal) S_ .f32 0x40000000#32))
          (Host.dotGeneral (F := Ideal) dot_S4096x8_S8x4096_S4096x4096_1_0_0_1_n_n none B A)))
      bitsLt_bf16_f32)
    transposes_S4096x4096_S4096x4096_1_0

variable (m : (ℓ : Loc nD τ sig) → Buf (Elt Ideal) ℓ)

/-- Window 0's array: the activations flattened and narrowed. -/
theorem V_v1 (c : Dev nD) :
    @Eq (FVec Ideal S8192x4096 .bf16) (V m c main_v1)
      (truncf .bf16 (shapeCast S8192x4096 (m ((c : Thread nD τ).loc main_arg0)) shapeCasts_S4x2048x4096_S8192x4096)
          bitsLt_bf16_f32) := by
  show StableHlo.after hostOps0 (fun b => m (c, b)) (Proc.devRef .tc main_v1) = _
  after_results_simp
  rfl

/-- Window 2's array: the bias as one row. -/
theorem V_v19 (c : Dev nD) :
    @Eq (FVec Ideal S1x4096 .f32) (V m c main_v19)
      (shapeCast S1x4096 (m ((c : Thread nD τ).loc main_arg3)) shapeCasts_S4096_S1x4096) := by
  show StableHlo.after hostOps0 (fun b => m (c, b)) (Proc.devRef .tc main_v19) = _
  after_results_simp
  rfl

set_option maxHeartbeats 2000000 in
/-- Window 1's array: the staged weight. -/
theorem V_v18 (c : Dev nD) :
    @Eq (FVec Ideal S4096x4096 .bf16) (V m c main_v18)
      (wT (m ((c : Thread nD τ).loc main_arg1)) (m ((c : Thread nD τ).loc main_arg2))
          (m ((c : Thread nD τ).loc main_arg4)) (m ((c : Thread nD τ).loc main_arg5))) := by
  show StableHlo.after hostOps0 (fun b => m (c, b)) (Proc.devRef .tc main_v18) = _
  after_results_simp
  rfl

/-! ## The same, entry by entry -/

/-- Row b * 2048 + s of the flattened activations is row (b, s) of the argument. -/
theorem acts_apply (x : FVec Ideal S4x2048x4096 .f32) (b : Fin 4) (s : Fin 2048) (k : Fin 4096) (r : Fin 8192)
    (hr : r.val = b.val * 2048 + s.val) :
    (truncf .bf16 (shapeCast S8192x4096 x shapeCasts_S4x2048x4096_S8192x4096) bitsLt_bf16_f32 : FVec Ideal S8192x4096 .bf16)
        (ix2 r k) = x (ix3 b s k) := by
  show shapeCast S8192x4096 x shapeCasts_S4x2048x4096_S8192x4096 (ix2 r k) = _
  exact shapeCast_abc_nc_apply x _ r k b s hr

/-- The bias row at column o is the bias at o. -/
theorem biasRow_apply (bias : FVec Ideal S4096 .f32) (o : Fin 4096) :
    shapeCast S1x4096 bias shapeCasts_S4096_S1x4096 (ix2 (0 : Fin 1) o) = bias (ix1 o) :=
  shapeCast_a_1a_apply bias _ 0 o

/-- Entry (k, o) of the staged weight: the decoded weight at (o, k) plus two times the rank-8 product there. -/
theorem wT_apply (codes : IVec S262144x64 32) (scales : FVec Ideal S262144 .f32) (A : FVec Ideal S8x4096 .f32)
    (B : FVec Ideal S4096x8 .f32) (k o : Fin 4096) :
    wT codes scales A B (ix2 k o)
      = weight codes scales (ix2 o k) + Cert.Spec.two * ∑ r : Fin 8, B (ix2 o r) * A (ix2 r k) := by
  unfold wT
  rw [transpose_ix2_apply]
  show weight codes scales (ix2 o k)
      + broadcastInDim S4096x4096 ![] bcast_S_S4096x4096 (constant (F := Ideal) S_ .f32 0x40000000#32) (ix2 o k)
        * Host.dotGeneral (F := Ideal) dot_S4096x8_S8x4096_S4096x4096_1_0_0_1_n_n none B A (ix2 o k) = _
  refine congrArg (weight codes scales (ix2 o k) + ·) ?_
  have h2 : broadcastInDim S4096x4096 ![] bcast_S_S4096x4096 (constant (F := Ideal) S_ .f32 0x40000000#32) (ix2 o k)
      = Cert.Spec.two :=
    broadcastInDim_apply _ _ _ _ ix0 (fun a => a.elim0)
  rw [h2]
  refine congrArg (Cert.Spec.two * ·) ?_
  simp only [Host.dotGeneral]
  rw [Ideal.dotGeneral_apply]
  exact Cert.LibPlainDot.plain_sum _ rfl rfl rfl rfl rfl rfl B A o k

end Cert.KernelIdeal.KerValue

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.KerBody.lean ====
/-
  One grid point of the kernel, as arithmetic. The body loads a 1024 x 4096 tile of activations, a 4096 x 512 tile of
  the (transposed, updated) weight and a 1 x 512 piece of the bias, multiplies the two tiles into a zero accumulator,
  and adds the bias piece to every row. So entry (p, q) of the 1024 x 512 tile it stores is
      sum_k acts (p, k) * weight (k, q) + bias (0, q).
-/
import proofs.«128790_j85890755985991_2_alg».proof.Proof.Gen.KernelIdeal.Skeleton
import proofs.«128790_j85890755985991_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.ValueIdx

/-- The stored tile at (p, q): row p of the activations against column q of the weight tile, plus the bias at q. -/
theorem pay_apply (x0 : FVec Ideal S1024x4096 .bf16) (x1 : FVec Ideal S4096x512 .bf16) (x2 : FVec Ideal S1x512 .f32)
    (p : Fin 1024) (q : Fin 512) :
    k0_pay1 (F := Ideal) x0 x1 x2 (ix2 p q)
      = (∑ k : Fin 4096, x0 (ix2 p k) * x1 (ix2 k q)) + x2 (ix2 (0 : Fin 1) q) := by
  unfold k0_pay1
  rw [shapeCast_self, shapeCast_self, shapeCast_self]
  refine (addf_apply _ _ _).trans ?_
  rw [broadcastTo_1b_ab_apply]
  refine congrArg (· + x2 (ix2 (0 : Fin 1) q)) ?_
  exact Cert.LibDense.matmul2d_apply _ rfl rfl rfl rfl rfl rfl none x0 x1 p q

end Cert.KernelIdeal.KerValue

end
-- ==== Proof.KerBlocks.lean ====
/-
  From the 64 grid points to the whole [8192, 4096] output array.

  The grid is 8 x 8: point (i, j) reads rows 1024 i .. 1024 i + 1023 of the flattened activations (all 4096 columns),
  columns 512 j .. 512 j + 511 of the staged weight (all 4096 rows) and the same columns of the bias row, and writes the
  1024 x 512 tile at block (i, j). Each tile is the restriction of ONE function of the three arrays,
      tileFn X WT Bi (r, o) = sum_k X (r, k) * WT (k, o) + Bi (0, o),
  and the 64 tiles cover the array: the point that holds (r, o) is (r / 1024, o / 512).
-/
import proofs.«128790_j85890755985991_2_alg».proof.Proof.Gen.KernelIdeal.Frame
import proofs.«128790_j85890755985991_2_alg».proof.Proof.KerBody
import Idealize.ShloMosaic.Lib.Pipeline.Value
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

/-- The whole output as one function of the three staged arrays. -/
def tileFn (X : FVec Ideal S8192x4096 .bf16) (WT : FVec Ideal S4096x4096 .bf16) (Bi : FVec Ideal S1x4096 .f32) :
    FVec Ideal S8192x4096 .f32 :=
  fun i => (∑ k : Fin 4096, X (ix2 (n0 := 8192) (i 0) k) * WT (ix2 (n1 := 4096) k (i 1)))
    + Bi (ix2 (n1 := 4096) (0 : Fin 1) (i 1))

theorem tileFn_apply (X : FVec Ideal S8192x4096 .bf16) (WT : FVec Ideal S4096x4096 .bf16) (Bi : FVec Ideal S1x4096 .f32)
    (r : Fin 8192) (o : Fin 4096) :
    tileFn X WT Bi (ix2 r o) = (∑ k : Fin 4096, X (ix2 r k) * WT (ix2 k o)) + Bi (ix2 (0 : Fin 1) o) := rfl

/-- A stored tile is a tile of `tileFn`: if the three loaded blocks are the arrays' rows from 1024 i0, columns from
    512 j0, then the tile's entry y is `tileFn` at the array index 1024 i0 + y's row, 512 j0 + y's column. -/
theorem tile_at (X : FVec Ideal S8192x4096 .bf16) (WT : FVec Ideal S4096x4096 .bf16) (Bi : FVec Ideal S1x4096 .f32)
    (x0 : FVec Ideal S1024x4096 .bf16) (x1 : FVec Ideal S4096x512 .bf16) (x2 : FVec Ideal S1x512 .f32) (i0 j0 : ℕ)
    (h0 : ∀ (p : Fin 1024) (k : Fin 4096) (hp : i0 * 1024 + p.val < 8192), x0 (ix2 p k) = X (ix2 ⟨i0 * 1024 + p.val, hp⟩ k))
    (h1 : ∀ (k : Fin 4096) (q : Fin 512) (hq : j0 * 512 + q.val < 4096), x1 (ix2 k q) = WT (ix2 k ⟨j0 * 512 + q.val, hq⟩))
    (h2 : ∀ (q : Fin 512) (hq : j0 * 512 + q.val < 4096), x2 (ix2 (0 : Fin 1) q) = Bi (ix2 (0 : Fin 1) ⟨j0 * 512 + q.val, hq⟩))
    (y : S1024x512.Idx) (i : S8192x4096.Idx) (hi0 : (i 0).val = i0 * 1024 + (y 0).val)
    (hi1 : (i 1).val = j0 * 512 + (y 1).val) :
    k0_pay1 (F := Ideal) x0 x1 x2 y = tileFn X WT Bi i := by
  obtain ⟨p, q, rfl⟩ : ∃ (p : Fin 1024) (q : Fin 512), y = ix2 p q := ⟨y 0, y 1, eq_ix2 y⟩
  obtain ⟨r, o, rfl⟩ : ∃ (r : Fin 8192) (o : Fin 4096), i = ix2 r o := ⟨i 0, i 1, eq_ix2 i⟩
  have hr : r.val = i0 * 1024 + p.val := hi0
  have ho : o.val = j0 * 512 + q.val := hi1
  have er : r = ⟨i0 * 1024 + p.val, hr ▸ r.isLt⟩ := Fin.ext hr
  have eo : o = ⟨j0 * 512 + q.val, ho ▸ o.isLt⟩ := Fin.ext ho
  rw [pay_apply, tileFn_apply, h2 q (ho ▸ o.isLt), ← eo]
  refine congrArg (· + Bi (ix2 (0 : Fin 1) o)) (Finset.sum_congr rfl fun k _ => ?_)
  rw [h0 p k (hr ▸ r.isLt), h1 k q (ho ▸ o.isLt), ← er, ← eo]

variable (m : (ℓ : Loc nD τ sig) → Buf (Elt Ideal) ℓ)

theorem hz : (![0, 0] : Fin 2 → Nat) = fun _ => 0 := funext fun a => by fin_cases a <;> rfl

/-- The printed index maps over the 64 points: the activations' block follows the output's row block, the weight's
    and the bias's follow its column block, and both block indices stay below 8. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block (i, j) of the 8 x 8 tiling is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- The activations' block at point t: rows from 1024 times the output's row block. -/
theorem iblk0_apply (c : Dev nD) (t : Fin cfg0.N) (p : Fin 1024) (k : Fin 4096) (r : Fin 8192)
    (hr : r.val = win0_3.index t (0 : Fin 2) * 1024 + p.val) :
    (iblk m c 0 t : FVec Ideal S1024x4096 .bf16) (ix2 p k) = (V m c main_v1 : FVec Ideal S8192x4096 .bf16) (ix2 r k) := by
  obtain ⟨e0, e1, -, -, -, -, -, -⟩ := idx_facts t
  show V m c main_v1 (((cfg0.win 0).blk t).view.emb (ix2 p k)) = V m c main_v1 (ix2 r k)
  refine congrArg (V m c main_v1) (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- The weight's block at point t: columns from 512 times the output's column block. -/
theorem iblk1_apply (c : Dev nD) (t : Fin cfg0.N) (k : Fin 4096) (q : Fin 512) (o : Fin 4096)
    (ho : o.val = win0_3.index t (1 : Fin 2) * 512 + q.val) :
    (iblk m c 1 t : FVec Ideal S4096x512 .bf16) (ix2 k q) = (V m c main_v18 : FVec Ideal S4096x4096 .bf16) (ix2 k o) := by
  obtain ⟨-, -, e2, e3, -, -, -, -⟩ := idx_facts t
  show V m c main_v18 (((cfg0.win 1).blk t).view.emb (ix2 k q)) = V m c main_v18 (ix2 k o)
  refine congrArg (V m c main_v18) (funext fun a => Fin.ext ?_)
  match a with
  | ⟨0, _⟩ => show win0_1.index t (0 : Fin 2) * 4096 + 1 * k.val = k.val; omega
  | ⟨1, _⟩ => show win0_1.index t (1 : Fin 2) * 512 + 1 * q.val = o.val; omega

/-- The bias's block at point t: the same columns of the one row. -/
theorem iblk2_apply (c : Dev nD) (t : Fin cfg0.N) (q : Fin 512) (o : Fin 4096)
    (ho : o.val = win0_3.index t (1 : Fin 2) * 512 + q.val) :
    (iblk m c 2 t : FVec Ideal S1x512 .f32) (ix2 (0 : Fin 1) q) = (V m c main_v19 : FVec Ideal S1x4096 .f32) (ix2 (0 : Fin 1) o) := by
  obtain ⟨-, -, -, -, e4, e5, -, -⟩ := idx_facts t
  show V m c main_v19 (((cfg0.win 2).blk t).view.emb (ix2 (0 : Fin 1) q)) = V m c main_v19 (ix2 (0 : Fin 1) o)
  refine congrArg (V m c main_v19) (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

/-- What point t writes back is block t of `tileFn` of the three arrays as the grid finds them. -/
theorem flushed_eq (c : Dev nD) (t : Fin cfg0.N) (hf : (cfg0.win 3).flush t = true) :
    (dats m 0 c).flushed 3 t
      = ((cfg0.win 3).blk t).view.read (Elt Ideal) (tileFn (V m c main_v1) (V m c main_v18) (V m c main_v19)) := by
  show (cfg0.win 3).cut (grid0.coords t) ((dats m 0 c).after 3 t) = _
  rw [after0_3]
  unfold out0_3
  rw [View.canon_unit_zero hz]
  simp only [View.ld_unit_zero (S := S1024x4096) hz, View.ld_unit_zero (S := S4096x512) hz,
    View.ld_unit_zero (S := S1x512) hz]
  funext j
  show k0_pay1 (F := Ideal) (iblk m c 0 t) (iblk m c 1 t) (iblk m c 2 t) j
    = tileFn (V m c main_v1) (V m c main_v18) (V m c main_v19) (((cfg0.win 3).blk t).view.emb j)
  exact tile_at (V m c main_v1) (V m c main_v18) (V m c main_v19) (iblk m c 0 t) (iblk m c 1 t) (iblk m c 2 t)
    (win0_3.index t (0 : Fin 2)) (win0_3.index t (1 : Fin 2))
    (fun p k hp => iblk0_apply m c t p k ⟨_, hp⟩ rfl)
    (fun k q hq => iblk1_apply m c t k q ⟨_, hq⟩ rfl)
    (fun q hq => iblk2_apply m c t q ⟨_, hq⟩ rfl)
    j (((cfg0.win 3).blk t).view.emb j)
    (by show win0_3.index t (0 : Fin 2) * 1024 + 1 * (j 0).val = _; omega)
    (by show win0_3.index t (1 : Fin 2) * 512 + 1 * (j 1).val = _; omega)

/-- An index of the array is in point t's block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v20).slice (win0_3.rect t)).set ↔ _
  rw [View.set_slice_whole, Rect.mem_set_unit]
  exact Iff.rfl

/-- The tiles cover the array. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the grid: `tileFn` of the three staged arrays. -/
theorem final (c : Dev nD) :
    (dats m 0 c).arrAt 3 cfg0.N = tileFn (V m c main_v1) (V m c main_v18) (V m c main_v19) :=
  (dats m 0 c).arrAt_eq_of_cover 3 (tileFn (V m c main_v1) (V m c main_v18) (V m c main_v19)) (flushed_eq m c) cover

end Cert.KernelIdeal.KerValue

end
-- ==== Proof.KerRun.lean ====
/-
  The kernel program's run, read at its result.

  After the grid the [8192, 4096] output array is `tileFn` of the three staged arrays; one host reshape turns it into
  the [4, 2048, 4096] result, entry (b, s, o) being the array's entry (b * 2048 + s, o). Substituting what the staged
  arrays are in terms of the arguments gives, at (b, s, o),
      sum_k x[b,s,k] * (W[o,k] + two * sum_r B[o,r] * A[r,k]) + bias[o],
  the folded form of the specification.
-/
import proofs.«128790_j85890755985991_2_alg».proof.Proof.Gen.KernelIdeal.Frame
import proofs.«128790_j85890755985991_2_alg».proof.Proof.Spec
import proofs.«128790_j85890755985991_2_alg».proof.Proof.KerHost
import proofs.«128790_j85890755985991_2_alg».proof.Proof.KerBlocks
import proofs.«128790_j85890755985991_2_alg».proof.Proof.LibLayout3
import Idealize.ShloMosaic.Lib.StableHlo.Run
import Idealize.ShloMosaic.Lib.Pipeline.Value
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.StableHlo Idealize.ShloMosaic.ValueIdx

/-- The reshaped output, in terms of the arguments: the folded form of the specification, entry by entry. -/
theorem tile_result (x : FVec Ideal S4x2048x4096 .f32) (codes : IVec S262144x64 32) (scales : FVec Ideal S262144 .f32)
    (bias : FVec Ideal S4096 .f32) (A : FVec Ideal S8x4096 .f32) (B : FVec Ideal S4096x8 .f32) :
    shapeCast S4x2048x4096
        (tileFn (truncf .bf16 (shapeCast S8192x4096 x shapeCasts_S4x2048x4096_S8192x4096) bitsLt_bf16_f32)
          (wT codes scales A B) (shapeCast S1x4096 bias shapeCasts_S4096_S1x4096))
        shapeCasts_S8192x4096_S4x2048x4096
      = Cert.Spec.result x (weight codes scales) bias A B := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [shapeCast_nc_abc_apply _ _ b s o ⟨b.val * 2048 + s.val, by omega⟩ rfl, tileFn_apply, Cert.Spec.result_apply]
  unfold Cert.Spec.kerAt
  rw [biasRow_apply]
  refine congrArg (· + bias (ix1 o)) (Finset.sum_congr rfl fun k _ => ?_)
  rw [acts_apply x b s k _ rfl, wT_apply]

variable (m : (ℓ : Loc nD τ sig) → Buf (Elt Ideal) ℓ) (ρ : Dev nD → PrngReg)

/-- The program's result buffer after the host reshape that follows the grid. -/
theorem tail_v21 (c : Dev nD) :
    @Eq (FVec Ideal S4x2048x4096 .f32) (Pipeline.afterTail₀ cfgs (dats m) 0 (V0 m) [hostOps1] c main_v21)
      (Cert.Spec.result (m ((c.tc : Thread nD τ).loc main_arg0))
        (weight (m ((c.tc : Thread nD τ).loc main_arg1)) (m ((c.tc : Thread nD τ).loc main_arg2)))
        (m ((c.tc : Thread nD τ).loc main_arg3)) (m ((c.tc : Thread nD τ).loc main_arg4))
        (m ((c.tc : Thread nD τ).loc main_arg5))) := by
  unfold Pipeline.afterTail₀
  show StableHlo.after hostOps1 _ (Proc.devRef .tc main_v21) = _
  after_results
  have e : Pipeline.withArrays (cfgs 0).spec c (V0 m c) (fun w => (dats m 0 c).arrAt w (cfgs 0).N) (Proc.devRef .tc main_v20)
      = tileFn (V m c main_v1) (V m c main_v18) (V m c main_v19) :=
    (Pipeline.withArrays_arr spec0 launch0.win.arr_inj c _ _ 3).trans (final m c)
  rw [e, V_v1, V_v18, V_v19]
  exact tile_result _ _ _ _ _ _

/-- Every weakly fair execution of the kernel program terminates with the result at the folded form of the
    specification and the arguments unchanged. -/
theorem run : θ_run (defs (F := Ideal)) (onTc (τ := τ) (main (F := Ideal))) ⟨m, fun _ => 0, ρ⟩ fun r => ∀ c : Dev nD,
      r.2.mem ((c.tc : Thread nD τ).loc main_v21)
        = Cert.Spec.result (m ((c.tc : Thread nD τ).loc main_arg0))
            (weight (m ((c.tc : Thread nD τ).loc main_arg1)) (m ((c.tc : Thread nD τ).loc main_arg2)))
            (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v21 (Pipeline.mem_restRefs_of main_v21 (by decide) (by decide))).trans (tail_v21 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KerValue

end
-- ==== Proof.RefRun.lean ====
/-
  The reference program's run, read back as one term.

  The reference is a straight line of 24 host operations on tensors: a constant table and two integer constants, the
  decoding of the weight (compare with 0, add 16, select, gather from the table, multiply by the row scale, re-lay as a
  square matrix), a contraction of the activations with the weight, the bias broadcast and added, two more contractions
  through the rank-8 factors, a multiplication by a constant and a final sum. Listed in order, the operations run to
  completion from any memory with zero counters, and each buffer then holds the composition of the operations that
  write it, applied to the arguments' contents at launch. The result buffer's term is named `refTerm`, the decoded
  weight inside it `weight`; the arguments' buffers are never written.
-/
import proofs.«128790_j85890755985991_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 24 host operations, in program order. -/
abbrev ops : List (HloOp τ sig (Elt F)) :=
  [ StableHlo.nullary main_cst (fun i => FloatOps.ofBits .f32 (lit0 (S16.rowMajor i))),
    StableHlo.nullary main_c (constantI S_ 32 0#32),
    StableHlo.unary main_c main_v0 (broadcastInDim S262144x64 ![] bcast_S_S262144x64 : (⟨S_, .i32⟩ : BufTy).Contents (Elt F) → (⟨S262144x64, .i32⟩ : BufTy).Contents (Elt F)),
    StableHlo.binary main_arg1 main_v0 main_v1 (cmpi .slt : (⟨S262144x64, .i32⟩ : BufTy).Contents (Elt F) → (⟨S262144x64, .i32⟩ : BufTy).Contents (Elt F) → (⟨S262144x64, .i1⟩ : BufTy).Contents (Elt F)),
    StableHlo.nullary main_c_0 (constantI S_ 32 16#32),
    StableHlo.unary main_c_0 main_v2 (broadcastInDim S262144x64 ![] bcast_S_S262144x64 : (⟨S_, .i32⟩ : BufTy).Contents (Elt F) → (⟨S262144x64, .i32⟩ : BufTy).Contents (Elt F)),
    StableHlo.binary main_arg1 main_v2 main_v3 (addi : (⟨S262144x64, .i32⟩ : BufTy).Contents (Elt F) → (⟨S262144x64, .i32⟩ : BufTy).Contents (Elt F) → (⟨S262144x64, .i32⟩ : BufTy).Contents (Elt F)),
    StableHlo.ternary main_v1 main_v3 main_arg1 main_v4 (select : (⟨S262144x64, .i1⟩ : BufTy).Contents (Elt F) → (⟨S262144x64, .i32⟩ : BufTy).Contents (Elt F) → (⟨S262144x64, .i32⟩ : BufTy).Contents (Elt F) → (⟨S262144x64, .i32⟩ : BufTy).Contents (Elt F)),
    StableHlo.unary main_v4 main_v5 (broadcastInDim S262144x64x1 ![0, 1] bcast_S262144x64_S262144x64x1_0_1 : (⟨S262144x64, .i32⟩ : BufTy).Contents (Elt F) → (⟨S262144x64x1, .i32⟩ : BufTy).Contents (Elt F)),
    StableHlo.binary main_cst main_v5 main_v6 ((fun x i => Host.gather gather_S16_S262144x64x1_S262144x64_n_0_n_n_0_2_1 x i) : (⟨S16, .f32⟩ : BufTy).Contents (Elt F) → (⟨S262144x64x1, .i32⟩ : BufTy).Contents (Elt F) → (⟨S262144x64, .f32⟩ : BufTy).Contents (Elt F)),
    StableHlo.unary main_arg2 main_v7 (broadcastInDim S262144x1 ![0] bcast_S262144_S262144x1_0 : (⟨S262144, .f32⟩ : BufTy).Contents (Elt F) → (⟨S262144x1, .f32⟩ : BufTy).Contents (Elt F)),
    StableHlo.unary main_v7 main_v8 (broadcastInDim S262144x64 ![0, 1] bcast_S262144x1_S262144x64_0_1 : (⟨S262144x1, .f32⟩ : BufTy).Contents (Elt F) → (⟨S262144x64, .f32⟩ : BufTy).Contents (Elt F)),
    StableHlo.binary main_v6 main_v8 main_v9 (mulf : (⟨S262144x64, .f32⟩ : BufTy).Contents (Elt F) → (⟨S262144x64, .f32⟩ : BufTy).Contents (Elt F) → (⟨S262144x64, .f32⟩ : BufTy).Contents (Elt F)),
    StableHlo.reshape main_v9 main_v10 rfl shapeCasts_S262144x64_S4096x4096,
    StableHlo.binary main_arg0 main_v10 main_v11 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg3 main_v12 (broadcastInDim S1x1x4096 ![2] bcast_S4096_S1x1x4096_2 : (⟨S4096, .f32⟩ : BufTy).Contents (Elt F) → (⟨S1x1x4096, .f32⟩ : BufTy).Contents (Elt F)),
    StableHlo.unary main_v12 main_v13 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v11 main_v13 main_v14 (addf : (⟨S4x2048x4096, .f32⟩ : BufTy).Contents (Elt F) → (⟨S4x2048x4096, .f32⟩ : BufTy).Contents (Elt F) → (⟨S4x2048x4096, .f32⟩ : BufTy).Contents (Elt F)),
    StableHlo.binary main_arg0 main_arg4 main_v15 ((fun l r => Host.dotGeneral dot_S4x2048x4096_S8x4096_S4x2048x8_2_1_01_0_n_n none l r) : (⟨S4x2048x4096, .f32⟩ : BufTy).Contents (Elt F) → (⟨S8x4096, .f32⟩ : BufTy).Contents (Elt F) → (⟨S4x2048x8, .f32⟩ : BufTy).Contents (Elt F)),
    StableHlo.binary main_v15 main_arg5 main_v16 ((fun l r => Host.dotGeneral dot_S4x2048x8_S4096x8_S4x2048x4096_2_1_01_0_n_n none l r) : (⟨S4x2048x8, .f32⟩ : BufTy).Contents (Elt F) → (⟨S4096x8, .f32⟩ : BufTy).Contents (Elt F) → (⟨S4x2048x4096, .f32⟩ : BufTy).Contents (Elt F)),
    StableHlo.nullary main_cst_1 (constant S_ .f32 0x40000000#32),
    StableHlo.unary main_cst_1 main_v17 (broadcastInDim S4x2048x4096 ![] bcast_S_S4x2048x4096 : (⟨S_, .f32⟩ : BufTy).Contents (Elt F) → (⟨S4x2048x4096, .f32⟩ : BufTy).Contents (Elt F)),
    StableHlo.binary main_v16 main_v17 main_v18 (mulf : (⟨S4x2048x4096, .f32⟩ : BufTy).Contents (Elt F) → (⟨S4x2048x4096, .f32⟩ : BufTy).Contents (Elt F) → (⟨S4x2048x4096, .f32⟩ : BufTy).Contents (Elt F)),
    StableHlo.binary main_v14 main_v18 main_v19 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., ternary_bufs_sub .., unary_bufs_sub .., binary_bufs_sub .., unary_bufs_sub .., unary_bufs_sub ..,
   binary_bufs_sub .., reshape_bufs_sub .., binary_bufs_sub .., unary_bufs_sub .., unary_bufs_sub .., binary_bufs_sub ..,
   binary_bufs_sub .., binary_bufs_sub .., nullary_bufs_sub .., unary_bufs_sub .., binary_bufs_sub .., binary_bufs_sub ..⟩

/-- The decoded weight matrix: a negative code has 16 added and any other code is kept, the
    16-entry table is read at the result, the entry is multiplied by the scale of its row of 64 codes, and the 262144 × 64
    array of products is re-laid, row-major, as a 4096 × 4096 matrix. -/
def weight (codes : IVec S262144x64 32) (scales : FVec Ideal S262144 .f32) : FVec Ideal S4096x4096 .f32 :=
  shapeCast S4096x4096
    (mulf
      (Host.gather gather_S16_S262144x64x1_S262144x64_n_0_n_n_0_2_1
        (fun i => FloatOps.ofBits (F := Ideal) .f32 (lit0 (S16.rowMajor i)))
        (broadcastInDim S262144x64x1 ![0, 1] bcast_S262144x64_S262144x64x1_0_1
          (select
            (cmpi .slt codes (broadcastInDim S262144x64 ![] bcast_S_S262144x64 (constantI S_ 32 0#32)))
            (addi codes (broadcastInDim S262144x64 ![] bcast_S_S262144x64 (constantI S_ 32 16#32)))
            codes)))
      (broadcastInDim S262144x64 ![0, 1] bcast_S262144x1_S262144x64_0_1
        (broadcastInDim S262144x1 ![0] bcast_S262144_S262144x1_0 scales)))
    shapeCasts_S262144x64_S4096x4096

/-- The reference's result as one term of its six inputs: the activations times the decoded weight (contracting the
    last axis of each) plus the bias repeated over the first two axes, plus the scaled low-rank path — the activations
    times A, that times B, every entry multiplied by the constant whose bits are 0x40000000. -/
def refTerm (x : FVec Ideal S4x2048x4096 .f32) (codes : IVec S262144x64 32) (scales : FVec Ideal S262144 .f32)
    (bias : FVec Ideal S4096 .f32) (A : FVec Ideal S8x4096 .f32) (B : FVec Ideal S4096x8 .f32) :
    FVec Ideal S4x2048x4096 .f32 :=
  addf
    (addf
      (Host.dotGeneral (F := Ideal) dot_S4x2048x4096_S4096x4096_S4x2048x4096_2_1_01_0_n_n none x (weight codes scales))
      (broadcastInDim S4x2048x4096 ![0, 1, 2] bcast_S1x1x4096_S4x2048x4096_0_1_2
        (broadcastInDim S1x1x4096 ![2] bcast_S4096_S1x1x4096_2 bias)))
    (mulf
      (Host.dotGeneral (F := Ideal) dot_S4x2048x8_S4096x8_S4x2048x4096_2_1_01_0_n_n none
        (Host.dotGeneral (F := Ideal) dot_S4x2048x4096_S8x4096_S4x2048x8_2_1_01_0_n_n none x A) B)
      (broadcastInDim S4x2048x4096 ![] bcast_S_S4x2048x4096 (constant (F := Ideal) S_ .f32 0x40000000#32)))

set_option maxHeartbeats 1000000 in
/-- What the result buffer holds after the 24 operations, from any contents: `refTerm` of the six arguments'. -/
theorem after_v19 (V : Valuation τ sig (Elt Ideal)) :
    after (ops (F := Ideal)) V (Proc.devRef .tc main_v19)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results
  rfl

/-! No operation writes an argument's buffer: each holds afterwards what it held before. -/

theorem after_arg0 (V : Valuation τ sig (Elt Ideal)) :
    after (ops (F := Ideal)) V (Proc.devRef .tc main_arg0) = V (Proc.devRef .tc main_arg0) := by
  after_results

theorem after_arg1 (V : Valuation τ sig (Elt Ideal)) :
    after (ops (F := Ideal)) V (Proc.devRef .tc main_arg1) = V (Proc.devRef .tc main_arg1) := by
  after_results

theorem after_arg2 (V : Valuation τ sig (Elt Ideal)) :
    after (ops (F := Ideal)) V (Proc.devRef .tc main_arg2) = V (Proc.devRef .tc main_arg2) := by
  after_results

theorem after_arg3 (V : Valuation τ sig (Elt Ideal)) :
    after (ops (F := Ideal)) V (Proc.devRef .tc main_arg3) = V (Proc.devRef .tc main_arg3) := by
  after_results

theorem after_arg4 (V : Valuation τ sig (Elt Ideal)) :
    after (ops (F := Ideal)) V (Proc.devRef .tc main_arg4) = V (Proc.devRef .tc main_arg4) := by
  after_results

theorem after_arg5 (V : Valuation τ sig (Elt Ideal)) :
    after (ops (F := Ideal)) V (Proc.devRef .tc main_arg5) = V (Proc.devRef .tc main_arg5) := by
  after_results

/-- On the one device, at the exact values, from any memory with zero counters: every weakly fair execution of the
    reference terminates with its result buffer at `refTerm` of the six arguments' launch contents, and the six
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (after_v19 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _)⟩)
    (run_seq scopedRefs_eq scopedSems_eq defs main (fun _ => ops) main_eq (fun _ => ops_sub) m ρ)

end Cert.ReferenceIdeal.RefRun

end
-- ==== Proof.LibDot3.lean ====
/-
  A batch of rows against a matrix stored with the contracted axis last, at the exact extended reals.

  The left operand l has three axes (a, b, K); the right operand r has two (N, K). The dimension numbers contract
  the left operand's last axis against the right operand's last axis, keep the left operand's first two axes and
  the right operand's first axis, and have no batch axis. The result has axes (a, b, N), and its contraction sum at
  the entry (p, q, n) is
      sum over k < K of l (p, q, k) * r (n, k).
  The contraction index has one coordinate, so the sum over it is a sum over k < K; the left index at (p, q, n)
  and k is (p, q, k), the right index is (n, k).
-/
import Idealize.ShloMosaic.Lib.ValueIdx
import Idealize.ShloMosaic.Lib.Pipeline.Value
import Idealize.ShloMosaic.PureOps.Ideal.Laws

noncomputable section

namespace Cert.LibDot3

open Idealize.ShloMosaic Idealize.ShloMosaic.ValueIdx

/-- The contraction sum of a three-axis operand against a two-axis one, both contracted on their last axis,
    is the sum over the shared extent K of the products of the entries. -/
theorem dot3_sum {a b K N : ℕ} (d : DotDims ⟨3, ![a, b, K]⟩ ⟨2, ![N, K]⟩ ⟨3, ![a, b, N]⟩)
    (h1 : d.lhsContracting = [2]) (h2 : d.rhsContracting = [1]) (h3 : d.lhsNonContracting = [0, 1])
    (h4 : d.rhsNonContracting = [0]) (h5 : d.lhsBatch = []) (h6 : d.rhsBatch = [])
    (l : (⟨3, ![a, b, K]⟩ : Shape).Idx → EReal) (r : (⟨2, ![N, K]⟩ : Shape).Idx → EReal)
    (p : Fin a) (q : Fin b) (n : Fin N) :
    ∑ k : d.contr.Idx, l (d.lhsIdx (ix3 p q n) k) * r (d.rhsIdx (ix3 p q n) k)
      = ∑ k : Fin K, l (ix3 p q k) * r (ix2 n k) := by
  obtain ⟨lc, rc, ln, rn, lb, rb, wf⟩ := d
  simp only at h1 h2 h3 h4 h5 h6
  subst h1 h2 h3 h4 h5 h6
  generalize hD : (⟨[2], [1], [0, 1], [0], [], [], wf⟩ : DotDims ⟨3, ![a, b, K]⟩ ⟨2, ![N, K]⟩ ⟨3, ![a, b, N]⟩) = D
  have c1 : D.lhsContracting = [2] := by subst hD; rfl
  have c2 : D.rhsContracting = [1] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  -- the left index: the two kept axes read the result's first two coordinates, the contracted one reads k
  have el : D.lhsIdx (ix3 p q n) ((contrEquiv1 D K hr hs).symm k) = ix3 p q k := funext fun ax => Fin.ext (by
    match ax with
    | ⟨0, _⟩ =>
      subst hD
      unfold DotDims.lhsIdx
      split
      · rename_i hb; exact absurd hb List.not_mem_nil
      · split
        · rfl
        · rename_i hn; exact absurd List.mem_cons_self hn
    | ⟨1, _⟩ =>
      subst hD
      unfold DotDims.lhsIdx
      split
      · rename_i hb; exact absurd hb List.not_mem_nil
      · split
        · rfl
        · rename_i hn; exact absurd (List.mem_cons_of_mem _ (List.mem_singleton.mpr rfl)) hn
    | ⟨2, _⟩ => exact (D.lhsIdx_val_of_single c1 _ _).trans hk)
  -- the right index: the kept axis reads the result's last coordinate, the contracted one reads k
  have er : D.rhsIdx (ix3 p q n) ((contrEquiv1 D K hr hs).symm k) = ix2 n k := funext fun ax => Fin.ext (by
    match ax with
    | ⟨0, _⟩ =>
      subst hD
      unfold DotDims.rhsIdx
      split
      · rename_i hb; exact absurd hb List.not_mem_nil
      · split
        · rfl
        · rename_i hn; exact absurd (List.mem_singleton.mpr rfl) hn
    | ⟨1, _⟩ => exact (D.rhsIdx_val_of_single c2 _ _).trans hk)
  rw [el, er]

end Cert.LibDot3

end
-- ==== Proof.RefValue.lean ====
/-
  The reference's result, entry by entry.

  The run leaves the result buffer at one composed term (`refTerm`). Read at the entry (b, s, o) it is the quantity the
  specification calls `refAt`: a host contraction of a rank-3 array with a matrix over the last axis of each is the sum,
  over the contracted coordinate, of the products of the entries (three times: against the decoded weight, against A,
  and the result of that against B); the bias, laid along the last axis of a 1 × 1 × 4096 array and repeated over the
  first two axes, reads at (b, s, o) as the bias at o; the broadcast scalar constant reads everywhere as the float with
  bits 0x40000000. The decoded weight is carried as one closed matrix.
-/
import proofs.«128790_j85890755985991_2_alg».proof.Proof.RefRun
import proofs.«128790_j85890755985991_2_alg».proof.Proof.Spec
import proofs.«128790_j85890755985991_2_alg».proof.Proof.LibDot3
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- A host contraction of a rank-3 array with a matrix over the last axis of each (no batch axis), at the exact values:
    its entry (p, q, n) is the sum over k of left (p, q, k) times right (n, k). -/
theorem hostDot3_apply {a b K N : ℕ} (d : DotDims ⟨3, ![a, b, K]⟩ ⟨2, ![N, K]⟩ ⟨3, ![a, b, N]⟩)
    (h1 : d.lhsContracting = [2]) (h2 : d.rhsContracting = [1]) (h3 : d.lhsNonContracting = [0, 1])
    (h4 : d.rhsNonContracting = [0]) (h5 : d.lhsBatch = []) (h6 : d.rhsBatch = [])
    (l : FVec Ideal ⟨3, ![a, b, K]⟩ .f32) (r : FVec Ideal ⟨2, ![N, K]⟩ .f32) (p : Fin a) (q : Fin b) (n : Fin N) :
    Host.dotGeneral (F := Ideal) d none l r (ix3 p q n) = ∑ k : Fin K, l (ix3 p q k) * r (ix2 n k) := by
  simp only [Host.dotGeneral]
  rw [Ideal.dotGeneral_apply]
  exact Cert.LibDot3.dot3_sum d h1 h2 h3 h4 h5 h6 l r p q n

/-- A vector laid along the last axis of a 1 × 1 × c array reads, at (u, v, i), the vector at i. -/
theorem bcast_c_11c_apply {c : ℕ} (x : (⟨1, ![c]⟩ : Shape).Idx → EReal)
    (h : (⟨1, ![c]⟩ : Shape).BroadcastsInDim ⟨3, ![1, 1, c]⟩ ![2]) (u v : Fin 1) (i : Fin c) :
    broadcastInDim ⟨3, ![1, 1, c]⟩ ![2] h x (ix3 u v i) = x (ix1 i) :=
  broadcastInDim_apply _ h x _ _ (fun ax => match ax with
    | ⟨0, _⟩ => by
      show i.val = if c = 1 then 0 else i.val
      split
      · have := i.isLt; omega
      · rfl)

/-- A 1 × 1 × c array repeated over its first two axes reads, at (p, q, i), the array at (0, 0, i). -/
theorem bcast_11c_abc_apply {a b c : ℕ} (v : (⟨3, ![1, 1, c]⟩ : Shape).Idx → EReal)
    (h : (⟨3, ![1, 1, c]⟩ : Shape).BroadcastsInDim ⟨3, ![a, b, c]⟩ ![0, 1, 2]) (p : Fin a) (q : Fin b) (i : Fin c) :
    broadcastInDim ⟨3, ![a, b, c]⟩ ![0, 1, 2] h v (ix3 p q i) = v (ix3 (0 : Fin 1) (0 : Fin 1) i) :=
  broadcastInDim_apply _ h v _ (ix3 (0 : Fin 1) (0 : Fin 1) i) (fun ax => match ax with
    | ⟨0, _⟩ => by
      show (0 : ℕ) = if (1 : ℕ) = 1 then 0 else p.val
      rw [if_pos rfl]
    | ⟨1, _⟩ => by
      show (0 : ℕ) = if (1 : ℕ) = 1 then 0 else q.val
      rw [if_pos rfl]
    | ⟨2, _⟩ => by
      show i.val = if c = 1 then 0 else i.val
      split
      · have := i.isLt; omega
      · rfl)

/-- A scalar repeated over a whole array reads the scalar everywhere. -/
theorem bcast_scalar_apply {t : Shape} (x : (⟨0, ![]⟩ : Shape).Idx → EReal)
    (h : (⟨0, ![]⟩ : Shape).BroadcastsInDim t ![]) (j : t.Idx) :
    broadcastInDim t ![] h x j = x ix0 :=
  broadcastInDim_apply _ h x j ix0 (fun ax => ax.elim0)

/-- The reference's result at the entry (b, s, o): the three contractions are sums over their contracted coordinate,
    the bias is read at o, the constant is the scale of the low-rank update. The decoded weight stays closed. -/
theorem refTerm_apply (x : FVec Ideal S4x2048x4096 .f32) (codes : IVec S262144x64 32) (scales : FVec Ideal S262144 .f32)
    (bias : FVec Ideal S4096 .f32) (A : FVec Ideal S8x4096 .f32) (B : FVec Ideal S4096x8 .f32)
    (b : Fin 4) (s : Fin 2048) (o : Fin 4096) :
    Cert.ReferenceIdeal.RefRun.refTerm x codes scales bias A B (ValueIdx.ix3 b s o)
      = Cert.Spec.refAt x (Cert.ReferenceIdeal.RefRun.weight codes scales) bias A B b s o := by
  unfold Cert.ReferenceIdeal.RefRun.refTerm Cert.Spec.refAt
  generalize Cert.ReferenceIdeal.RefRun.weight codes scales = W
  have e1 : Host.dotGeneral (F := Ideal) dot_S4x2048x4096_S4096x4096_S4x2048x4096_2_1_01_0_n_n none x W (ix3 b s o)
      = ∑ k : Fin 4096, x (ix3 b s k) * W (ix2 o k) :=
    hostDot3_apply dot_S4x2048x4096_S4096x4096_S4x2048x4096_2_1_01_0_n_n rfl rfl rfl rfl rfl rfl x W b s o
  have e2 : ∀ r : Fin 8, Host.dotGeneral (F := Ideal) dot_S4x2048x4096_S8x4096_S4x2048x8_2_1_01_0_n_n none x A (ix3 b s r)
      = ∑ k : Fin 4096, x (ix3 b s k) * A (ix2 r k) := fun r =>
    hostDot3_apply dot_S4x2048x4096_S8x4096_S4x2048x8_2_1_01_0_n_n rfl rfl rfl rfl rfl rfl x A b s r
  have e3 : Host.dotGeneral (F := Ideal) dot_S4x2048x8_S4096x8_S4x2048x4096_2_1_01_0_n_n none
        (Host.dotGeneral (F := Ideal) dot_S4x2048x4096_S8x4096_S4x2048x8_2_1_01_0_n_n none x A) B (ix3 b s o)
      = ∑ r : Fin 8, (∑ k : Fin 4096, x (ix3 b s k) * A (ix2 r k)) * B (ix2 o r) :=
    (hostDot3_apply dot_S4x2048x8_S4096x8_S4x2048x4096_2_1_01_0_n_n rfl rfl rfl rfl rfl rfl
      (Host.dotGeneral (F := Ideal) dot_S4x2048x4096_S8x4096_S4x2048x8_2_1_01_0_n_n none x A) B b s o).trans
      (Finset.sum_congr rfl fun r _ => congrArg (· * B (ix2 o r)) (e2 r))
  have eb : broadcastInDim S4x2048x4096 ![0, 1, 2] bcast_S1x1x4096_S4x2048x4096_0_1_2
        (broadcastInDim S1x1x4096 ![2] bcast_S4096_S1x1x4096_2 bias) (ix3 b s o) = bias (ix1 o) :=
    (bcast_11c_abc_apply _ bcast_S1x1x4096_S4x2048x4096_0_1_2 b s o).trans
      (bcast_c_11c_apply bias bcast_S4096_S1x1x4096_2 0 0 o)
  have ec : broadcastInDim S4x2048x4096 ![] bcast_S_S4x2048x4096 (constant (F := Ideal) S_ .f32 0x40000000#32) (ix3 b s o)
      = Cert.Spec.two :=
    bcast_scalar_apply _ bcast_S_S4x2048x4096 (ix3 b s o)
  rw [addf_apply, addf_apply, mulf_apply, e1, e3, eb, ec]

end Cert.ReferenceIdeal.RefValue

end
-- ==== Proof.lean ====
/-
  A linear layer whose 4096 x 4096 weight is stored as 4-bit codes with per-block scales, plus a rank-8 update
  scaled by two, applied to 4 x 2048 activation rows of length 4096, plus a bias.

  The kernel program decodes the weight W, folds the update into it on the host (W + two * B·A), and multiplies the
  flattened activations by the transposed result tile by tile on an 8 x 8 grid, adding the bias row to each tile:
      out[b,s,o] = sum_k x[b,s,k] * (W[o,k] + two * sum_r B[o,r] * A[r,k]) + bias[o].
  The reference keeps three products:
      out[b,s,o] = (sum_k x[b,s,k] * W[o,k] + bias[o]) + (sum_r (sum_k x[b,s,k] * A[r,k]) * B[o,r]) * two.
  W is decoded by the same operations on both sides and is carried as one array; it may hold anything. On the extended
  reals the two forms agree as soon as x, A and B are finite, which the precondition states: a real multiple
  distributes over the sum of any extended real and a real, finite sums split and commute, and the real part is the
  usual exchange of the two summations. Changes of float format are the identity on exact values, so the kernel's
  narrowing of its operands to bf16 does not enter.

  Kernel side: the staged arrays as functions of the arguments (KerHost), one tile as arithmetic (KerBody), the tiles
  assembled into the output array (KerBlocks), the reshape after the grid and the run (KerRun). Reference side: its
  run and its result entry by entry (RefRun, RefValue). The law (Law) and finiteness from the precondition (Finite).
-/
import proofs.«128790_j85890755985991_2_alg».proof.Defs
import proofs.«128790_j85890755985991_2_alg».proof.Proof.Gen.Kernel
import proofs.«128790_j85890755985991_2_alg».proof.Proof.Gen.Kernel.Frame
import proofs.«128790_j85890755985991_2_alg».proof.Proof.Gen.KernelIdeal
import proofs.«128790_j85890755985991_2_alg».proof.Proof.Gen.KernelIdeal.Frame
import proofs.«128790_j85890755985991_2_alg».proof.Proof.Gen.ReferenceIdeal
import proofs.«128790_j85890755985991_2_alg».proof.Proof.Gen.Pre_finite_inputs
import proofs.«128790_j85890755985991_2_alg».proof.Proof.Spec
import proofs.«128790_j85890755985991_2_alg».proof.Proof.Law
import proofs.«128790_j85890755985991_2_alg».proof.Proof.Finite
import proofs.«128790_j85890755985991_2_alg».proof.Proof.KerRun
import proofs.«128790_j85890755985991_2_alg».proof.Proof.RefRun
import proofs.«128790_j85890755985991_2_alg».proof.Proof.RefValue
import Idealize.ShloMosaic.Adequacy
import Idealize.ShloMosaic.Init

noncomputable section

namespace Cert.Proof

open Idealize.ShloMosaic Idealize.ShloMosaic.ValueIdx Idealize.SL.Sem

/-- Both programs decode the weight by the same operations on the same table: one array. -/
theorem weight_eq (codes : IVec Cert.KernelIdeal.S262144x64 32) (scales : FVec Ideal Cert.KernelIdeal.S262144 .f32) :
    Cert.KernelIdeal.KerValue.weight codes scales = Cert.ReferenceIdeal.RefRun.weight codes scales := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- Both programs end at the folded form of the specification: the kernel by its run, the reference because its
    unfolded form equals the folded one when x, A and B are finite. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5⟩ := hagree c
  rw [a0, a1, a2, a3, a4, a5]
  obtain ⟨hx, hA, hB⟩ := Cert.Finite.reals_of_pre _ _ _ _ _ _ (hpre c)
  funext i
  obtain ⟨b, s, o, rfl⟩ : ∃ (b : Fin 4) (s : Fin 2048) (o : Fin 4096), i = ix3 b s o := ⟨i 0, i 1, i 2, eq_ix3 i⟩
  rw [Cert.ReferenceIdeal.RefValue.refTerm_apply, Cert.Spec.result_apply, weight_eq]
  exact (Cert.Spec.kerAt_eq_refAt _ _ _ _ _ hx hA hB b s o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
